-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S1024x256 : Shape := ⟨2, ![1024, 256]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S32x256x32x32 .f32) (main_arg1 : FVec F S1024x256 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S32x256x32x32 : Shape := ⟨4, ![32, 256, 32, 32]⟩
abbrev S1024x256 : Shape := ⟨2, ![1024, 256]⟩
abbrev S32x256x1024 : Shape := ⟨3, ![32, 256, 1024]⟩
abbrev S1x256x1024 : Shape := ⟨3, ![1, 256, 1024]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 5
  | .vmem => 5
  | .smem => 0
  | _ => 0

abbrev bufTy : (tb : Table) → Fin (tcTables nBuf tb) → BufTy
  | .hbm, ⟨0, _⟩ => ⟨S32x256x32x32, .f32⟩
  | .hbm, ⟨1, _⟩ => ⟨S1024x256, .f32⟩
  | .hbm, ⟨2, _⟩ => ⟨S32x256x1024, .f32⟩
  | .hbm, ⟨3, _⟩ => ⟨S32x256x1024, .f32⟩
  | .hbm, ⟨4, _⟩ => ⟨S32x256x32x32, .f32⟩
  | .local _ .vmem, ⟨0, _⟩ => ⟨S1024x256, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x256x32x32_S32x256x1024 : S32x256x32x32.ShapeCasts S32x256x1024
  inb_S1024x256_S1024x256_0_0 : ∀ a, (![0, 0] : Fin 2 → Nat) a + S1024x256.size a ≤ S1024x256.size a
  h_S1024x256 : 0 < S1024x256.numel
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  broadcasts_S1x1024_S1024x1024 : S1x1024.Broadcasts S1024x1024
  natLt_1_32 : 1 < 32
  shapeCasts_S256x1024_S1x256x1024 : S256x1024.ShapeCasts S1x256x1024
  shapeCasts_S32x256x1024_S32x256x32x32 : S32x256x1024.ShapeCasts S32x256x32x32
  dot_S1024x256_S256x1024_S1024x1024_1_0_0_1_n_n_wf : DotDims.WF S1024x256 S256x1024 S1024x1024 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S32x256x1024.size a
  hwx0_1 : ∀ i : grid0.Coords, EltTy.bits .f32 = 32 ∨ (Rect.block (s := S32x256x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S32x256x1024.size a
  hwx0_2 : ∀ i : grid0.Coords, EltTy.bits .f32 = 32 ∨ (Rect.block (s := S32x256x1024) S1x256x1024.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg1) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x32x32 : Shape := ⟨4, ![32, 256, 32, 32]⟩
abbrev S1024x256 : Shape := ⟨2, ![1024, 256]⟩
abbrev S32x256x1024 : Shape := ⟨3, ![32, 256, 1024]⟩
abbrev S32x1024x256 : Shape := ⟨3, ![32, 1024, 256]⟩
abbrev S1x1024x256 : Shape := ⟨3, ![1, 1024, 256]⟩
abbrev S_ : Shape := ⟨0, ![]⟩
abbrev S32x1024x1024 : Shape := ⟨3, ![32, 1024, 1024]⟩
abbrev S32x1024 : Shape := ⟨2, ![32, 1024]⟩
abbrev S32x1024x1 : Shape := ⟨3, ![32, 1024, 1]⟩
abbrev S32x1x1024 : Shape := ⟨3, ![32, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S32x256x32x32, .f32⟩
  | .hbm, ⟨1, _⟩ => ⟨S1024x256, .f32⟩
  | .hbm, ⟨2, _⟩ => ⟨S32x256x1024, .f32⟩
  | .hbm, ⟨3, _⟩ => ⟨S32x1024x256, .f32⟩
  | .hbm, ⟨4, _⟩ => ⟨S1x1024x256, .f32⟩
  | .hbm, ⟨5, _⟩ => ⟨S32x1024x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32x1024x1024, .f32⟩
  | .hbm, ⟨10, _⟩ => ⟨S32x1024x1024, .f32⟩
  | .hbm, ⟨11, _⟩ => ⟨S32x1024x1024, .f32⟩
  | .hbm, ⟨12, _⟩ => ⟨S_, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S32x1024x1, .f32⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S_, .f32⟩
  | .hbm, ⟨22, _⟩ => ⟨S32x1024, .f32⟩
  | .hbm, ⟨23, _⟩ => ⟨S32x1024x1, .f32⟩
  | .hbm, ⟨24, _⟩ => ⟨S32x1024x1024, .f32⟩
  | .hbm, ⟨25, _⟩ => ⟨S32x1024x1024, .f32⟩
  | .hbm, ⟨26, _⟩ => ⟨S_, .f32⟩
  | .hbm, ⟨27, _⟩ => ⟨S32x1024, .f32⟩
  | .hbm, ⟨28, _⟩ => ⟨S_, .f32⟩
  | .hbm, ⟨29, _⟩ => ⟨S32x1024, .f32⟩
  | .hbm, ⟨30, _⟩ => ⟨S32x1024, .f32⟩
  | .hbm, ⟨31, _⟩ => ⟨S32x1x1024, .f32⟩
  | .hbm, ⟨32, _⟩ => ⟨S32x1024x1024, .f32⟩
  | .hbm, ⟨33, _⟩ => ⟨S32x1024x1024, .f32⟩
  | .hbm, ⟨34, _⟩ => ⟨S32x1024x1024, .f32⟩
  | .hbm, ⟨35, _⟩ => ⟨S_, .f32⟩
  | .hbm, ⟨36, _⟩ => ⟨S32x1024, .f32⟩
  | .hbm, ⟨37, _⟩ => ⟨S32x1x1024, .f32⟩
  | .hbm, ⟨38, _⟩ => ⟨S32x1024x1024, .f32⟩
  | .hbm, ⟨39, _⟩ => ⟨S32x1024x1024, .f32⟩
  | .hbm, ⟨40, _⟩ => ⟨S32x1024x1024, .f32⟩
  | .hbm, ⟨41, _⟩ => ⟨S_, .f32⟩
  | .hbm, ⟨42, _⟩ => ⟨S32x1024x1024, .f32⟩
  | .hbm, ⟨43, _⟩ => ⟨S32x1024x1024, .f32⟩
  | .hbm, ⟨44, _⟩ => ⟨S_, .f32⟩
  | .hbm, ⟨45, _⟩ => ⟨S32x1024, .f32⟩
  | .hbm, ⟨46, _⟩ => ⟨S_, .f32⟩
  | .hbm, ⟨47, _⟩ => ⟨S32x1024, .f32⟩
  | .hbm, ⟨48, _⟩ => ⟨S32x1024, .f32⟩
  | .hbm, ⟨49, _⟩ => ⟨S32x1024x1, .f32⟩
  | .hbm, ⟨50, _⟩ => ⟨S32x1024x1024, .f32⟩
  | .hbm, ⟨51, _⟩ => ⟨S32x1024x1024, .f32⟩
  | .hbm, ⟨52, _⟩ => ⟨S32x1024x1024, .f32⟩
  | .hbm, ⟨53, _⟩ => ⟨S_, .f32⟩
  | .hbm, ⟨54, _⟩ => ⟨S32x1024, .f32⟩
  | .hbm, ⟨55, _⟩ => ⟨S32x1024x1, .f32⟩
  | .hbm, ⟨56, _⟩ => ⟨S32x1024x1024, .f32⟩
  | .hbm, ⟨57, _⟩ => ⟨S32x1024x1024, .f32⟩
  | .hbm, ⟨58, _⟩ => ⟨S_, .f32⟩
  | .hbm, ⟨59, _⟩ => ⟨S32x1024, .f32⟩
  | .hbm, ⟨60, _⟩ => ⟨S32x1024x1, .f32⟩
  | .hbm, ⟨61, _⟩ => ⟨S32x1024x1024, .f32⟩
  | .hbm, ⟨62, _⟩ => ⟨S32x1024x1024, .i1⟩
  | .hbm, ⟨63, _⟩ => ⟨S32x1024x1024, .f32⟩
  | .hbm, ⟨64, _⟩ => ⟨S32x1024x256, .f32⟩
  | .hbm, ⟨65, _⟩ => ⟨S32x256x1024, .f32⟩
  | .hbm, ⟨66, _⟩ => ⟨S32x256x32x32, .f32⟩
  | _, _ => ⟨S32x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]

class Facts₀ : Prop where
  shapeCasts_S32x256x32x32_S32x256x1024 : S32x256x32x32.ShapeCasts S32x256x1024
  transposes_S32x256x1024_S32x1024x256_0_2_1 : S32x256x1024.Transposes [0, 2, 1] S32x1024x256
  bcast_S1024x256_S1x1024x256_1_2 : S1024x256.BroadcastsInDim S1x1024x256 (![1, 2] : Fin 2 → Fin S1x1024x256.rank)
  bcast_S1x1024x256_S32x1024x256_0_1_2 : S1x1024x256.BroadcastsInDim S32x1024x256 (![0, 1, 2] : Fin 3 → Fin S32x1024x256.rank)
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  reducesTo_S32x1024x1024_S32x1024_d1 : S32x1024x1024.ReducesTo [1] S32x1024
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  transposes_S32x1024x256_S32x256x1024_0_2_1 : S32x1024x256.Transposes [0, 2, 1] S32x256x1024
  shapeCasts_S32x256x1024_S32x256x32x32 : S32x256x1024.ShapeCasts S32x256x32x32
  dot_S32x1024x256_S32x1024x256_S32x1024x1024_2_2_1_1_0_0_wf : DotDims.WF S32x1024x256 S32x1024x256 S32x1024x1024 [2] [2] [1] [1] [0] [0]
  dot_S32x1024x1024_S32x1024x256_S32x1024x256_2_1_1_2_0_0_wf : DotDims.WF S32x1024x1024 S32x1024x256 S32x1024x256 [2] [1] [1] [2] [0] [0]

variable [Facts₀]

def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.Spec.lean ====
/-
  The mathematics both programs compute, stated once over plain arrays of extended reals.

  For one batch entry the scores are  A n m = (∑ c, Q (n, c) · X (b, c, m)) scaled by 1/16.  Each score is weighted by the
  product of two softmaxes, one along its row (over m) and one along its column (over n):  W n m = softmax_m (A n ·) m ·
  softmax_n (A · m) n.  The result keeps, for every n, the columns m at which W n · is greatest, as a 0/1 mask, and sums the
  features over the kept columns:  Z b c n = ∑ m, X (b, c, m) · [W n m = max_m' W n m'].

  One program takes the mask of W directly; the other first passes each row W n · through one more softmax at a
  positive temperature.  A softmax of a row of real numbers is a strictly increasing function of the entry (the
  shift and the normaliser are shared by the whole row), so it has its greatest entries exactly where the row has
  them: the two masks are one (Proof/MaskLaw.lean).
-/
import Idealize.ShloMosaic.PureOps.Ideal
import Idealize.ShloMosaic.Lib.ValueIdx

noncomputable section

namespace Cert.MutualNN

open Idealize.ShloMosaic Idealize.ShloMosaic.ValueIdx

/-- The greatest entry of a row, taken from `-∞`. -/
def rowMax {n : ℕ} (f : Fin n → EReal) : EReal := (Finset.univ : Finset (Fin n)).fold max ⊥ f

/-- The softmax of a row: every entry shifted by the row's greatest, exponentiated, and divided by the row's total. -/
def softmax {n : ℕ} (f : Fin n → EReal) (j : Fin n) : EReal :=
  Ideal.div (Ideal.exp (f j - rowMax f)) (∑ k : Fin n, Ideal.exp (f k - rowMax f))

/-- The 0/1 mask of a row's greatest entries. -/
def hard {n : ℕ} (f : Fin n → EReal) (j : Fin n) : EReal := if f j = rowMax f then 1 else 0

/-- An extended real that is a real number. -/
def IsReal (x : EReal) : Prop := ∃ r : ℝ, x = (r : EReal)

/-- The unscaled scores of batch entry `b`: query `n` against key `m`, contracted over the channels. -/
def dots (Q : (⟨2, ![1024, 256]⟩ : Shape).Idx → EReal) (X : (⟨3, ![32, 256, 1024]⟩ : Shape).Idx → EReal)
    (b : Fin 32) (n m : Fin 1024) : EReal :=
  ∑ c : Fin 256, Q (ix2 n c) * X (ix3 b c m)

/-- The mutual weights of a square table of scores: the softmax along the row times the softmax along the column. -/
def weights (A : Fin 1024 → Fin 1024 → EReal) (n m : Fin 1024) : EReal :=
  softmax (fun m' => A n m') m * softmax (fun n' => A n' m) n

/-- The features summed over the columns a 0/1 table `M` keeps for `n`. -/
def gatherSum (X : (⟨3, ![32, 256, 1024]⟩ : Shape).Idx → EReal) (M : Fin 1024 → Fin 1024 → EReal)
    (b : Fin 32) (c : Fin 256) (n : Fin 1024) : EReal :=
  ∑ m : Fin 1024, X (ix3 b c m) * M n m

/-- The result with the mask taken of the weights themselves, the scores scaled by the factor `s`. -/
def direct (s : EReal) (Q : (⟨2, ![1024, 256]⟩ : Shape).Idx → EReal) (X : (⟨3, ![32, 256, 1024]⟩ : Shape).Idx → EReal)
    (b : Fin 32) (c : Fin 256) (n : Fin 1024) : EReal :=
  gatherSum X (fun n' => hard (weights (fun p q => dots Q X b p q * s) n')) b c n

/-- The result with every row of weights divided by the temperature `T` and passed through one more softmax before
    the mask is taken, the scores divided by `d`. -/
def tempered (d T : EReal) (Q : (⟨2, ![1024, 256]⟩ : Shape).Idx → EReal) (X : (⟨3, ![32, 256, 1024]⟩ : Shape).Idx → EReal)
    (b : Fin 32) (c : Fin 256) (n : Fin 1024) : EReal :=
  gatherSum X (fun n' => hard (softmax fun m' => Ideal.div (weights (fun p q => Ideal.div (dots Q X b p q) d) n' m') T)) b c n

end Cert.MutualNN

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.LibMatmulNT.lean ====
/-
  A matrix product against a transposed right operand, read at an entry.

  For a product of an [M, K] matrix with an [N, K] matrix in which BOTH operands contract their second axis (A · Bᵀ:
  the scores of M query rows against N key rows), taken into the zero accumulator and read at the exact extended
  reals, entry (p, q) is the sum over k of A (p, k) * B (q, k). Generic in the three extents and in the
  dimension-number record: any record with these six lists has these operand indices.
-/
import Idealize.ShloMosaic.PureOps.Ideal.Laws
import Idealize.ShloMosaic.Lib.ValueIdx

noncomputable section

namespace Cert.Lib.MatmulNT

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_nt (d : DotDims ⟨2, ![M, K]⟩ ⟨2, ![N, K]⟩ ⟨2, ![M, N]⟩) (hlc : d.lhsContracting = [1]) :
    d.contr.rank = 1 := by rw [d.rank_contr, hlc]; rfl

/-- of extent K. -/
theorem contr_size_nt (d : DotDims ⟨2, ![M, K]⟩ ⟨2, ![N, K]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_nt (d : DotDims ⟨2, ![M, K]⟩ ⟨2, ![N, K]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (q, k). -/
theorem rhsIdx_nt (d : DotDims ⟨2, ![M, K]⟩ ⟨2, ![N, K]⟩ ⟨2, ![M, N]⟩)
    (hlb : d.lhsBatch = []) (hln : d.lhsNonContracting = [0])
    (hrb : d.rhsBatch = []) (hrn : d.rhsNonContracting = [0]) (hrc : d.rhsContracting = [1])
    (hr : d.contr.rank = 1) (hs : d.contr.size ⟨0, by omega⟩ = K) (p : Fin M) (q : Fin N) (k : Fin K) :
    d.rhsIdx (ix2 p q) ((contrEquiv1 d K hr hs).symm k) = ix2 q k := by
  funext a
  apply Fin.ext
  match a with
  | ⟨0, h0⟩ =>
    have hb : (⟨0, h0⟩ : Fin 2) ∉ d.rhsBatch := by rw [hrb]; exact List.not_mem_nil
    have hn : (⟨0, h0⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])
  | ⟨1, h1⟩ =>
    exact (d.rhsIdx_val_of_single hrc (ix2 p q) _).trans (contrEquiv1_symm_val d K hr hs k)

/-- Entry (p, q) of the product into the zero accumulator is the sum over k of A (p, k) * B (q, k). -/
theorem matmul_nt_apply {φ₁ φ₂ : FTy} (d : DotDims ⟨2, ![M, K]⟩ ⟨2, ![N, K]⟩ ⟨2, ![M, N]⟩)
    (hlb : d.lhsBatch = []) (hln : d.lhsNonContracting = [0]) (hlc : d.lhsContracting = [1])
    (hrb : d.rhsBatch = []) (hrn : d.rhsNonContracting = [0]) (hrc : d.rhsContracting = [1])
    (prec : Option ContractPrecision) (A : FVec Ideal ⟨2, ![M, K]⟩ φ₁) (B : FVec Ideal ⟨2, ![N, K]⟩ φ₂)
    (p : Fin M) (q : Fin N) :
    matmul d prec A B (constant (F := Ideal) ⟨2, ![M, N]⟩ .f32 0x00000000#32) (ix2 p q)
      = ∑ k : Fin K, A (ix2 p k) * B (ix2 q k) := by
  have hr : d.contr.rank = 1 := contr_rank_nt d hlc
  have hs : d.contr.size ⟨0, by omega⟩ = K := contr_size_nt d hlc _
  refine (Ideal.matmul_constant_zero_apply d prec A B (ix2 p q)).trans ?_
  rw [← Equiv.sum_comp (contrEquiv1 d K hr hs).symm]
  refine Finset.sum_congr rfl fun k _ => ?_
  rw [lhsIdx_nt d hlb hln hlc hr hs p q k, rhsIdx_nt d hlb hln hrb hrn hrc hr hs p q k]

end Cert.Lib.MatmulNT

end
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Row reductions kept as a column, read at an index, at the ideal values: the sum (or the maximum) of a matrix
  along its rows, viewed as a one-column matrix, holds at `(p, u)` the sum (the fold of `max`) of row `p`.
-/
import Idealize.ShloMosaic.PureOps.Ideal.Laws
import Idealize.ShloMosaic.Lib.ValueIdx
import Idealize.ShloMosaic.Lib.Pipeline.Value
import proofs.«157147_j72310069395865_2_alg».proof.Proof.LibKeepdims

namespace Cert.Lib

open Idealize.ShloMosaic Idealize.ShloMosaic.ValueIdx

variable {φ : FTy}

/-- Inserting the column coordinate `k` into the row index `p` gives `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- The row sums of an `[a, b]` matrix, kept as an `[a, 1]` column: at `(p, u)` the sum of row `p`. -/
theorem rowSum_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ v acc h hφ hacc) hc (ix2 p u)
      = ∑ k : Fin b, v (ix2 p k) := by
  rw [shapeCast_a_a1_apply]
  refine (Ideal.multiReduction_add_single v acc h hφ hacc (ix1 p)).trans ?_
  exact Finset.sum_congr rfl fun k _ => congrArg v (lift_row h p k)

/-- The row maxima likewise: at `(p, u)` the fold of `max`, from the accumulator's value, over row `p`. -/
theorem rowMax_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (p : Fin a) (u : Fin 1) :
    shapeCast ⟨2, ![a, 1]⟩ (multiReduction .maximumf [1] ⟨1, ![a]⟩ v acc h hφ hacc) hc (ix2 p u)
      = (Finset.univ : Finset (Fin b)).fold max (Ideal.ofBits φ acc) (fun k => v (ix2 p k)) := by
  rw [shapeCast_a_a1_apply]
  refine (Ideal.multiReduction_maximumf_single v acc h hφ hacc (ix1 p)).trans ?_
  have e : (v ∘ h.lift (ix1 p)) = fun k : Fin b => v (ix2 p k) := funext fun k => congrArg v (lift_row h p k)
  rw [e]
  rfl

end Cert.Lib
-- ==== Proof.LibColReduce.lean ====
/-
  Column reductions of a matrix, kept as a one-row matrix.

  A `vector.multi_reduction` along axis 0 of an `[a, b]` matrix leaves a `[b]` vector; laid out as the row `[1, b]` by a
  shape cast it reads, at `(u, q)`, the sum over `k` of column `q` (for `<add>`), or the fold of `max` from the
  accumulator's value over column `q` (for `<maximumf>`). These are the column twins of the row forms
  (rows kept as an `[a, 1]` column).
-/
import Idealize.ShloMosaic.PureOps.Ideal.Laws
import Idealize.ShloMosaic.Lib.ValueIdx
import Idealize.ShloMosaic.Lib.Pipeline.Value
import Idealize.ShloMosaic.Lib.ValueLayout

noncomputable section

namespace Cert.LibColReduce

open Idealize.ShloMosaic Idealize.ShloMosaic.ValueIdx

variable {φ : FTy}

/-- Inserting the row coordinate `k` into the column index `q` gives `(k, q)`. -/
theorem lift_col {a b : ℕ} (h : (⟨2, ![a, b]⟩ : Shape).Reduces [0] ⟨1, ![b]⟩) (q : Fin b) (k : Fin a) :
    h.lift (ix1 q) k = ix2 k q := by
  funext c
  apply Fin.ext
  match c with
  | ⟨0, _⟩ => rfl
  | ⟨1, _⟩ => rfl

/-- The column sums of an `[a, b]` matrix, kept as a `[1, b]` row: at `(u, q)` the sum of column `q`. -/
theorem colSum_row {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hc : (⟨1, ![b]⟩ : Shape).ShapeCasts ⟨2, ![1, b]⟩) (u : Fin 1) (q : Fin b) :
    shapeCast ⟨2, ![1, b]⟩ (multiReduction .add [0] ⟨1, ![b]⟩ v acc h hφ hacc) hc (ix2 u q)
      = ∑ k : Fin a, v (ix2 k q) := by
  rw [shapeCast_a_1a_apply]
  refine (Ideal.multiReduction_add_single v acc h hφ hacc (ix1 q)).trans ?_
  exact Finset.sum_congr rfl fun k _ => congrArg v (lift_col h q k)

/-- The column maxima likewise: at `(u, q)` the fold of `max`, from the accumulator's value, over column `q`. -/
theorem colMax_row {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (u : Fin 1) (q : Fin b) :
    shapeCast ⟨2, ![1, b]⟩ (multiReduction .maximumf [0] ⟨1, ![b]⟩ v acc h hφ hacc) hc (ix2 u q)
      = (Finset.univ : Finset (Fin a)).fold max (Ideal.ofBits φ acc) (fun k => v (ix2 k q)) := by
  rw [shapeCast_a_1a_apply]
  refine (Ideal.multiReduction_maximumf_single v acc h hφ hacc (ix1 q)).trans ?_
  have e : (v ∘ h.lift (ix1 q)) = fun k : Fin a => v (ix2 k q) := funext fun k => congrArg v (lift_col h q k)
  rw [e]
  rfl

end Cert.LibColReduce

end
-- ==== Proof.KernelBody.lean ====
/-
  What the kernel's body stores, entry by entry.

  At one grid point the body holds the whole query table `q : [1024, 256]` and one batch entry's features
  `x : [1, 256, 1024]` (channel-major). It forms the scores  A n m = (∑ c, q (n, c) · x (0, c, m)) · (1/16),  the softmax of A
  along each row and along each column, their product W, the 0/1 mask of each row's greatest entries of W, and stores
  Z c n = ∑ m, x (0, c, m) · mask n m.  A change of float format is the identity on the extended reals, a matmul into a zero
  accumulator is the plain sum of products, and a lane reduction is the sum (or the greatest) of the lane.
-/
import proofs.«157147_j72310069395865_2_alg».proof.Proof.Spec
import proofs.«157147_j72310069395865_2_alg».proof.Proof.Gen.KernelIdeal.Skeleton
import proofs.«157147_j72310069395865_2_alg».proof.Proof.LibPlainMatmul
import proofs.«157147_j72310069395865_2_alg».proof.Proof.LibMatmulNT
import proofs.«157147_j72310069395865_2_alg».proof.Proof.LibRowReduce
import proofs.«157147_j72310069395865_2_alg».proof.Proof.LibColReduce
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Facts₀ Cert.MutualNN
open Idealize.ShloMosaic Idealize.ShloMosaic.ValueIdx

variable [Cert.KernelIdeal.Facts]

/-- The pattern of `-∞`. -/
theorem ofBits_neg_inf : Ideal.ofBits .f32 0xFF800000#32 = ⊥ := by
  simp [Ideal.ofBits, Ideal.ieee]

/-! ## The body's stages, each a function of the one before -/

/-- The batch entry's features as a `[256, 1024]` matrix (channel, position). -/
def flat (x1 : Vec Ideal S1x256x1024 .f32) : FVec Ideal S256x1024 .f32 :=
  shapeCast S256x1024 x1 shapeCasts_S1x256x1024_S256x1024

/-- Each row's greatest entry, repeated along the row. -/
def rowTop (y : FVec Ideal S1024x1024 .f32) : FVec Ideal S1024x1024 .f32 :=
  broadcastTo S1024x1024 (shapeCast S1024x1 (multiReduction .maximumf [1] S1024 y 0xFF800000#32 reduces_S1024x1024_S1024 (.inl rfl) rfl)
    shapeCasts_S1024_S1024x1) broadcasts_S1024x1_S1024x1024

/-- Each row's total, repeated along the row. -/
def rowTot (e : FVec Ideal S1024x1024 .f32) : FVec Ideal S1024x1024 .f32 :=
  broadcastTo S1024x1024 (shapeCast S1024x1 (multiReduction .add [1] S1024 e 0x00000000#32 reduces_S1024x1024_S1024 (.inl rfl) rfl)
    shapeCasts_S1024_S1024x1) broadcasts_S1024x1_S1024x1024

/-- Each column's greatest entry, repeated down the column. -/
def colTop (y : FVec Ideal S1024x1024 .f32) : FVec Ideal S1024x1024 .f32 :=
  broadcastTo S1024x1024 (shapeCast S1x1024 (multiReduction .maximumf [0] S1024 y 0xFF800000#32 reduces_S1024x1024_S1024_2 (.inl rfl) rfl)
    shapeCasts_S1024_S1x1024) broadcasts_S1x1024_S1024x1024

/-- Each column's total, repeated down the column. -/
def colTot (e : FVec Ideal S1024x1024 .f32) : FVec Ideal S1024x1024 .f32 :=
  broadcastTo S1024x1024 (shapeCast S1x1024 (multiReduction .add [0] S1024 e 0x00000000#32 reduces_S1024x1024_S1024_2 (.inl rfl) rfl)
    shapeCasts_S1024_S1x1024) broadcasts_S1x1024_S1024x1024

/-- The softmax along each row, as the body spells it. -/
def rowSoft (y : FVec Ideal S1024x1024 .f32) : FVec Ideal S1024x1024 .f32 :=
  divf (exp (subf y (rowTop y))) (rowTot (exp (subf y (rowTop y))))

/-- The softmax along each column, as the body spells it. -/
def colSoft (y : FVec Ideal S1024x1024 .f32) : FVec Ideal S1024x1024 .f32 :=
  divf (exp (subf y (colTop y))) (colTot (exp (subf y (colTop y))))

/-- The 0/1 mask of each row's greatest entries, as the body spells it. -/
def rowMask (w : FVec Ideal S1024x1024 .f32) : FVec Ideal S1024x1024 .f32 :=
  sitofp .f32 (extui 32 (cmpf .oeq w (rowTop w)) natLt_1_32)

/-- The scaled scores, as the body spells them. -/
def scoresOf (x0 : Vec Ideal S1024x256 .f32) (x1 : Vec Ideal S1x256x1024 .f32) : FVec Ideal S1024x1024 .f32 :=
  mulf (matmul dot_S1024x256_S256x1024_S1024x1024_1_0_0_1_n_n none (truncf .bf16 x0 bitsLt_bf16_f32)
      (truncf .bf16 (flat x1) bitsLt_bf16_f32) (constant S1024x1024 .f32 0x00000000#32))
    (broadcast S1024x1024 (Scalar.ofBits .f32 0x3D800000#32))

/-- The stored value is these stages composed. -/
theorem pay_eq (x0 : Vec Ideal S1024x256 .f32) (x1 : Vec Ideal S1x256x1024 .f32) :
    Gen.k0_pay1 (F := Ideal) x0 x1
      = shapeCast S1x256x1024 (matmul dot_S256x1024_S1024x1024_S256x1024_1_1_0_0_n_n none (flat x1)
          (rowMask (mulf (rowSoft (scoresOf x0 x1)) (colSoft (scoresOf x0 x1))))
          (constant S256x1024 .f32 0x00000000#32)) shapeCasts_S256x1024_S1x256x1024 := rfl

/-! ## Each stage read at an entry -/

theorem flat_apply (x1 : Vec Ideal S1x256x1024 .f32) (c : Fin 256) (m : Fin 1024) :
    flat x1 (ix2 c m) = x1 (ix3 (0 : Fin 1) c m) :=
  shapeCast_1ab_ab_apply x1 _ c m

theorem rowTop_apply (y : FVec Ideal S1024x1024 .f32) (n m : Fin 1024) :
    rowTop y (ix2 n m) = rowMax (fun m' => y (ix2 n m')) := by
  unfold rowTop
  refine (Cert.Lib.broadcastTo_a1_ab_apply _ _ n m).trans ?_
  refine (Cert.Lib.rowMax_col y 0xFF800000#32 reduces_S1024x1024_S1024 (.inl rfl) rfl shapeCasts_S1024_S1024x1 n 0).trans ?_
  rw [ofBits_neg_inf]
  rfl

theorem rowTot_apply (e : FVec Ideal S1024x1024 .f32) (n m : Fin 1024) :
    rowTot e (ix2 n m) = ∑ k : Fin 1024, e (ix2 n k) := by
  unfold rowTot
  refine (Cert.Lib.broadcastTo_a1_ab_apply _ _ n m).trans ?_
  exact Cert.Lib.rowSum_col e 0x00000000#32 reduces_S1024x1024_S1024 (.inl rfl) rfl shapeCasts_S1024_S1024x1 n 0

theorem colTop_apply (y : FVec Ideal S1024x1024 .f32) (n m : Fin 1024) :
    colTop y (ix2 n m) = rowMax (fun n' => y (ix2 n' m)) := by
  unfold colTop
  refine (broadcastTo_1b_ab_apply _ _ n m).trans ?_
  refine (Cert.LibColReduce.colMax_row y 0xFF800000#32 reduces_S1024x1024_S1024_2 (.inl rfl) rfl shapeCasts_S1024_S1x1024 0 m).trans ?_
  rw [ofBits_neg_inf]
  rfl

theorem colTot_apply (e : FVec Ideal S1024x1024 .f32) (n m : Fin 1024) :
    colTot e (ix2 n m) = ∑ k : Fin 1024, e (ix2 k m) := by
  unfold colTot
  refine (broadcastTo_1b_ab_apply _ _ n m).trans ?_
  exact Cert.LibColReduce.colSum_row e 0x00000000#32 reduces_S1024x1024_S1024_2 (.inl rfl) rfl shapeCasts_S1024_S1x1024 0 m

theorem rowSoft_apply (y : FVec Ideal S1024x1024 .f32) (n m : Fin 1024) :
    rowSoft y (ix2 n m) = softmax (fun m' => y (ix2 n m')) m := by
  unfold rowSoft softmax
  rw [divf_apply, rowTot_apply]
  show Ideal.div (Ideal.exp (y (ix2 n m) - rowTop y (ix2 n m))) (∑ k : Fin 1024, Ideal.exp (y (ix2 n k) - rowTop y (ix2 n k))) = _
  simp only [rowTop_apply]

theorem colSoft_apply (y : FVec Ideal S1024x1024 .f32) (n m : Fin 1024) :
    colSoft y (ix2 n m) = softmax (fun n' => y (ix2 n' m)) n := by
  unfold colSoft softmax
  rw [divf_apply, colTot_apply]
  show Ideal.div (Ideal.exp (y (ix2 n m) - colTop y (ix2 n m))) (∑ k : Fin 1024, Ideal.exp (y (ix2 k m) - colTop y (ix2 k m))) = _
  simp only [colTop_apply]

/-- A comparison bit widened and read as a number is 1 where the two sides are equal and 0 elsewhere. -/
theorem eqBit (a b : EReal) :
    FloatOps.sitofp (F := Ideal) .f32 ((FloatOps.cmpf (F := Ideal) (φ := .f32) .oeq a b).setWidth 32) = if a = b then 1 else 0 := by
  show (((BitVec.setWidth 32 (BitVec.ofBool (decide (a = b)))).toInt : ℝ) : EReal) = _
  by_cases h : a = b
  · simp [h]
  · simp [h]

theorem rowMask_apply (w : FVec Ideal S1024x1024 .f32) (n m : Fin 1024) :
    rowMask w (ix2 n m) = hard (fun m' => w (ix2 n m')) m := by
  unfold rowMask hard
  rw [sitofp_apply, extui_apply, cmpf_apply, rowTop_apply]
  exact eqBit _ _

theorem scoresOf_apply (x0 : Vec Ideal S1024x256 .f32) (x1 : Vec Ideal S1x256x1024 .f32) (n m : Fin 1024) :
    scoresOf x0 x1 (ix2 n m)
      = (∑ c : Fin 256, x0 (ix2 n c) * x1 (ix3 (0 : Fin 1) c m)) * Ideal.ofBits .f32 0x3D800000#32 := by
  unfold scoresOf
  rw [mulf_apply, broadcast_apply, Cert.SE.Lib.matmul_plain_apply _ rfl rfl rfl rfl rfl rfl]
  simp only [truncf_apply, flat_apply]
  rfl

/-- The stored value at channel `c` and query `n`, for a block `x1` that is batch entry `b` of the features `X`. -/
theorem pay_apply (x0 : Vec Ideal S1024x256 .f32) (x1 : Vec Ideal S1x256x1024 .f32)
    (X : (⟨3, ![32, 256, 1024]⟩ : Shape).Idx → EReal) (b : Fin 32)
    (hx : ∀ (c : Fin 256) (m : Fin 1024), x1 (ix3 (0 : Fin 1) c m) = X (ix3 b c m))
    (u : Fin 1) (c : Fin 256) (n : Fin 1024) :
    Gen.k0_pay1 (F := Ideal) x0 x1 (ix3 u c n) = direct (Ideal.ofBits .f32 0x3D800000#32) x0 X b c n := by
  rw [pay_eq, shapeCast_ab_1ab_apply, Cert.Lib.MatmulNT.matmul_nt_apply _ rfl rfl rfl rfl rfl rfl]
  unfold direct gatherSum
  refine Finset.sum_congr rfl fun m _ => ?_
  rw [flat_apply, hx, rowMask_apply]
  refine congrArg (fun f : Fin 1024 → EReal => X (ix3 b c m) * hard f m) (funext fun m' => ?_)
  rw [mulf_apply, rowSoft_apply, colSoft_apply]
  unfold weights
  simp only [scoresOf_apply, hx]
  rfl

end Cert.KernelIdeal.Body

end
-- ==== Proof.KernelValue.lean ====
/-
  What the kernel leaves in its result array.

  The call runs one grid point per batch entry `b`: the point stages the whole query table and block `b` of the
  features (reshaped on the host from `[32, 256, 32, 32]` to `[32, 256, 1024]` before the call), and writes block `b` of
  the `[32, 256, 1024]` output. The 32 blocks tile the output, so after the call the output array is, entry by entry,
  the masked sum of Spec.lean taken of the whole arrays; the host then reshapes it back to `[32, 256, 32, 32]`.
-/
import proofs.«157147_j72310069395865_2_alg».proof.Proof.KernelBody
import proofs.«157147_j72310069395865_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen Cert.MutualNN
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The features as the call finds them: the first argument reshaped to `[32, 256, 1024]`. -/
def feats (c : Dev nD) : S32x256x1024.Idx → EReal :=
  shapeCast S32x256x1024 (m ((c : Thread nD τ).loc main_arg0) : S32x256x32x32.Idx → EReal) shapeCasts_S32x256x32x32_S32x256x1024

/-- The query table: the second argument. -/
def table (c : Dev nD) : S1024x256.Idx → EReal := m ((c : Thread nD τ).loc main_arg1)

theorem V_main_v0 (c : Dev nD) : (V m c main_v0 : S32x256x1024.Idx → EReal) = feats m c := by
  show StableHlo.after hostOps0 (fun b => m (c, b)) (Proc.devRef .tc main_v0) = _
  after_results
  rfl

/-- The output array after the call, as one function of the arguments. -/
def result (c : Dev nD) : S32x256x1024.Idx → EReal := fun i =>
  direct (Ideal.ofBits .f32 0x3D800000#32) (table m c) (feats m c) (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the table's block never moves; point `t` takes block `t` of the features and of the
    output along the batch axis. -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Grid point `t` as a batch entry. -/
def batchOf (t : Fin cfg0.N) : Fin 32 := ⟨t.val, Nat.lt_of_lt_of_eq t.isLt (N_0 : cfg0.N = 32)⟩

/-- The first window's block is the whole query table at every point. -/
theorem iblk0_eq (c : Dev nD) (t : Fin cfg0.N) : (iblk m c 0 t : Vec Ideal S1024x256 .f32) = table m c := by
  obtain ⟨e0, e1, -⟩ := idx_facts t
  funext y
  unfold iblk
  rw [View.read_apply]
  show V m c main_arg1 _ = _
  rw [V_main_arg1]
  unfold table
  refine congrArg (m ((c : Thread nD τ).loc main_arg1) : S1024x256.Idx → EReal) (funext fun a => Fin.ext ?_)
  match a with
  | ⟨0, _⟩ => show win0_0.index t (0 : Fin 2) * 1024 + 1 * (y 0).val = (y 0).val; rw [e0]; omega
  | ⟨1, _⟩ => show win0_0.index t (1 : Fin 2) * 256 + 1 * (y 1).val = (y 1).val; rw [e1]; omega

/-- The second window's block at point `t` is batch entry `t` of the features. -/
theorem iblk1_apply (c : Dev nD) (t : Fin cfg0.N) (cc : Fin 256) (mm : Fin 1024) :
    (iblk m c 1 t : Vec Ideal S1x256x1024 .f32) (ix3 (0 : Fin 1) cc mm) = feats m c (ix3 (batchOf t) cc mm) := by
  obtain ⟨-, -, e0, e1, e2, -⟩ := idx_facts t
  unfold iblk
  rw [View.read_apply]
  show V m c main_v0 _ = _
  rw [V_main_v0]
  refine congrArg (feats m c) (funext fun a => Fin.ext ?_)
  match a with
  | ⟨0, _⟩ => show win0_1.index t (0 : Fin 3) * 1 + 1 * 0 = t.val; rw [e0]; omega
  | ⟨1, _⟩ => show win0_1.index t (1 : Fin 3) * 256 + 1 * cc.val = cc.val; rw [e1]; omega
  | ⟨2, _⟩ => show win0_1.index t (2 : Fin 3) * 1024 + 1 * mm.val = mm.val; rw [e2]; omega

/-- What the body leaves in the output's buffer, entry by entry, over a table `x0` and a block `x1` that is batch
    entry `b` of the features `X`. -/
theorem out_apply (x0 : Vec Ideal S1024x256 .f32) (x1 : Vec Ideal S1x256x1024 .f32)
    (X : (⟨3, ![32, 256, 1024]⟩ : Shape).Idx → EReal) (b : Fin 32)
    (hx : ∀ (cc : Fin 256) (mm : Fin 1024), x1 (ix3 (0 : Fin 1) cc mm) = X (ix3 b cc mm)) (j : S1x256x1024.Idx) :
    out0_2 x0 x1 j = direct (Ideal.ofBits .f32 0x3D800000#32) x0 X b (j 1) (j 2) := by
  unfold out0_2
  rw [View.canon_unit_zero hz3]
  simp only [View.ld_unit_zero (S := S1024x256) hz2, View.ld_unit_zero (S := S1x256x1024) hz3]
  obtain ⟨u, cc, n, rfl⟩ : ∃ (u : Fin 1) (cc : Fin 256) (n : Fin 1024), j = ix3 u cc n := ⟨j 0, j 1, j 2, eq_ix3 j⟩
  exact Body.pay_apply x0 x1 X b hx u cc n

/-- What point `t` writes back is block `t` of `result`. -/
theorem flushed_eq (c : Dev nD) (t : Fin cfg0.N) :
    (dats m 0 c).flushed 2 t = ((cfg0.win 2).blk t).view.read (Elt Ideal) (result m c) := by
  obtain ⟨-, -, -, -, -, e0, e1, e2⟩ := idx_facts t
  show (cfg0.win 2).cut (grid0.coords t) ((dats m 0 c).after 2 t) = _
  rw [after0_2, iblk0_eq]
  funext j
  show out0_2 (table m c) (iblk m c 1 t) j = result m c (((cfg0.win 2).blk t).view.emb j)
  refine (out_apply (table m c) (iblk m c 1 t) (feats m c) (batchOf t) (fun cc mm => iblk1_apply m c t cc mm) j).trans ?_
  unfold result
  have h0 : batchOf t = (((cfg0.win 2).blk t).view.emb j) 0 := Fin.ext (by
    show t.val = win0_2.index t (0 : Fin 3) * 1 + 1 * (j 0).val
    have : (j 0).val < 1 := (j 0).isLt
    rw [e0]; omega)
  have h1 : j 1 = (((cfg0.win 2).blk t).view.emb j) 1 := Fin.ext (by
    show (j 1).val = win0_2.index t (1 : Fin 3) * 256 + 1 * (j 1).val
    rw [e1]; omega)
  have h2 : j 2 = (((cfg0.win 2).blk t).view.emb j) 2 := Fin.ext (by
    show (j 2).val = win0_2.index t (2 : Fin 3) * 1024 + 1 * (j 2).val
    rw [e2]; omega)
  rw [← h0, ← h1, ← h2]

/-- An index of the output array is in point `t`'s block iff each coordinate is in the block's range on its axis. -/
theorem mem_blk (t : Fin cfg0.N) (i : S32x256x1024.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v1).slice (win0_2.rect t)).set ↔ _
  rw [View.set_slice_whole, Rect.mem_set_unit]
  exact Iff.rfl

/-- The 32 blocks tile the output (entry `(b, c, n)` lies in point `b`'s block), so after the call the output array is
    `result`. -/
theorem final (c : Dev nD) : (dats m 0 c).arrAt 2 cfg0.N = result m c :=
  (dats m 0 c).arrAt_eq_of_cover 2 (result m c) (fun t _ => flushed_eq m c t) fun i => by
    have h0 : (i 0).val < 32 := (i 0).isLt
    have h1 : (i 1).val < 256 := (i 1).isLt
    have h2 : (i 2).val < 1024 := (i 2).isLt
    let t : Fin cfg0.N := ⟨(i 0).val, Nat.lt_of_lt_of_eq h0 (N_0 : cfg0.N = 32).symm⟩
    obtain ⟨-, -, -, -, -, e0, e1, e2⟩ := idx_facts t
    refine ⟨t, flush0_2 t, ?_⟩
    rw [mem_blk]
    intro a
    match a with
    | ⟨0, _⟩ =>
      show win0_2.index t (0 : Fin 3) * 1 ≤ (i 0).val ∧ (i 0).val < win0_2.index t (0 : Fin 3) * 1 + 1
      rw [e0]; show (i 0).val * 1 ≤ (i 0).val ∧ (i 0).val < (i 0).val * 1 + 1; omega
    | ⟨1, _⟩ =>
      show win0_2.index t (1 : Fin 3) * 256 ≤ (i 1).val ∧ (i 1).val < win0_2.index t (1 : Fin 3) * 256 + 256
      rw [e1]; omega
    | ⟨2, _⟩ =>
      show win0_2.index t (2 : Fin 3) * 1024 ≤ (i 2).val ∧ (i 2).val < win0_2.index t (2 : Fin 3) * 1024 + 1024
      rw [e2]; omega

/-- The host line after the call reshapes the output array to the result's `[32, 256, 32, 32]`. -/
theorem tail_eq (c : Dev nD) :
    Pipeline.afterTail₀ cfgs (dats m) 0 (V0 m) [hostOps1] c main_v2
      = shapeCast S32x256x32x32 (result m c) shapeCasts_S32x256x1024_S32x256x32x32 := by
  unfold Pipeline.afterTail₀
  show StableHlo.after hostOps1 _ (Proc.devRef .tc main_v2) = _
  after_results
  exact congrArg (fun y : S32x256x1024.Idx → EReal => shapeCast S32x256x32x32 y shapeCasts_S32x256x1024_S32x256x32x32)
    ((Pipeline.withArrays_arr spec0 launch0.win.arr_inj c _ _ 2).trans (final m c))

/-- The run, read: the result at the reshaped `result`, the arguments unchanged. -/
theorem run : θ_run defs (onTc (τ := τ) (main (F := Ideal))) ⟨m, fun _ => 0, ρ⟩ fun r => ∀ c : Dev nD,
      r.2.mem ((c : Thread nD τ).loc main_v2) = shapeCast S32x256x32x32 (result m c) shapeCasts_S32x256x1024_S32x256x32x32
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 0).trans (((dats m 0 c).arrAt_in 0 rfl _).trans ((A_eq m c 0).trans (V_main_arg1 m c)))⟩)
    (run_main m ρ)

end Cert.KernelIdeal.Hand

end
-- ==== Proof.RefValue.lean ====
/-
  The host reference program read at an index: its stages, one at a time, are the specification's
  scores, softmaxes, mutual weights, tempered softmax, 0/1 mask and gathered sum.
-/
import proofs.«157147_j72310069395865_2_alg».proof.Proof.Spec
import proofs.«157147_j72310069395865_2_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.MutualNN Idealize.ShloMosaic Idealize.ShloMosaic.ValueIdx

/-- The word of negative infinity is the least extended real. -/
theorem bot_word : Ideal.ofBits .f32 0xFF800000#32 = (⊥ : EReal) := by
  simp [Ideal.ofBits, Ideal.ieee]

/-- A maximum taken along the last axis from negative infinity, read at a row, is the row's greatest entry. -/
theorem reduce_max_last (y : S32x1024x1024.Idx → EReal) (c : S_.Idx → EReal) (hc : ∀ i, c i = ⊥) (b : Fin 32) (n : Fin 1024) :
    Host.reduce (FloatOps.maximumf (F := Ideal) (φ := .f32)) y c reducesTo_S32x1024x1024_S32x1024_d2 h_S_ (ix2 b n)
      = rowMax (fun m : Fin 1024 => y (ix3 b n m)) := by
  rw [Host.reduce_eq_fold_single _ y c reducesTo_S32x1024x1024_S32x1024_d2 (by decide) h_S_, hc]
  exact Finset.fold_congr (fun m _ => congrArg y (funext fun a => Fin.ext (by
    match a with | ⟨0, _⟩ => rfl | ⟨1, _⟩ => rfl | ⟨2, _⟩ => rfl)))

/-- A maximum taken along the middle axis from negative infinity, read at a column, is the column's greatest entry. -/
theorem reduce_max_mid (y : S32x1024x1024.Idx → EReal) (c : S_.Idx → EReal) (hc : ∀ i, c i = ⊥) (b : Fin 32) (m : Fin 1024) :
    Host.reduce (FloatOps.maximumf (F := Ideal) (φ := .f32)) y c reducesTo_S32x1024x1024_S32x1024_d1 h_S_ (ix2 b m)
      = rowMax (fun n : Fin 1024 => y (ix3 b n m)) := by
  rw [Host.reduce_eq_fold_single _ y c reducesTo_S32x1024x1024_S32x1024_d1 (by decide) h_S_, hc]
  exact Finset.fold_congr (fun n _ => congrArg y (funext fun a => Fin.ext (by
    match a with | ⟨0, _⟩ => rfl | ⟨1, _⟩ => rfl | ⟨2, _⟩ => rfl)))

section Stages

variable (x0 : (⟨S32x256x32x32, .f32⟩ : BufTy).Contents (Elt Ideal)) (x1 : (⟨S1024x256, .f32⟩ : BufTy).Contents (Elt Ideal))

/-! ## The scores -/

/-- The scaled scores: query `n` against key `m`, contracted over the channels, divided by the square root of the channel count. -/
theorem v7_at (b : Fin 32) (n m : Fin 1024) :
    val_main_v7 (F := Ideal) x0 x1 (ix3 b n m)
      = Ideal.div (dots x1 (val_main_v0 (F := Ideal) x0) b n m)
          (Ideal.pow (Ideal.ofBits .f32 0x43800000#32) (Ideal.ofBits .f32 0x3F000000#32)) := by
  rw [val_main_v7_apply, val_main_v5_apply, val_main_v6_apply, val_main_v4_apply, val_main_cst_apply, val_main_cst_0_apply]
  simp only [Ideal.hostDivf_def, Ideal.hostPowf_def, Ideal.ofBits_def]
  unfold dots
  refine congrArg (fun s => Ideal.div s _) (Finset.sum_congr rfl fun c _ => ?_)
  rw [val_main_v3_apply, val_main_v2_apply, val_main_v1_apply]
  have el : idx_main_v2 (idx_main_v3 (lidx_main_v5 (ix3 b n m) c)) = ix2 n c :=
    funext fun a => Fin.ext (by match a with | ⟨0, _⟩ => rfl | ⟨1, _⟩ => rfl)
  have er : idx_main_v1 (ridx_main_v5 (ix3 b n m) c) = ix3 b c m :=
    funext fun a => Fin.ext (by match a with | ⟨0, _⟩ => rfl | ⟨1, _⟩ => rfl | ⟨2, _⟩ => rfl)
  rw [el, er]

/-! ## The softmax along each row -/

/-- The row's greatest score. -/
theorem v10_at (b : Fin 32) (n : Fin 1024) :
    val_main_v10 (F := Ideal) x0 x1 (ix2 b n) = rowMax (fun m : Fin 1024 => val_main_v7 (F := Ideal) x0 x1 (ix3 b n m)) := by
  rw [val_main_v10_apply, val_main_v9_apply, val_main_cst_2_apply]
  unfold val_main_v8
  rw [reduce_max_last _ _ (fun i => by rw [val_main_cst_1_apply, Ideal.ofBits_def, bot_word]) b n]
  simp only [Ideal.ofBits_def, bot_word, Ideal.maximumf_def]
  exact max_eq_right bot_le

/-- The exponential of the score shifted by its row's greatest. -/
theorem v14_at (b : Fin 32) (n m : Fin 1024) :
    val_main_v14 (F := Ideal) x0 x1 (ix3 b n m)
      = Ideal.exp (val_main_v7 (F := Ideal) x0 x1 (ix3 b n m)
          - rowMax (fun m' : Fin 1024 => val_main_v7 (F := Ideal) x0 x1 (ix3 b n m'))) := by
  rw [val_main_v14_apply, val_main_v13_apply, val_main_v12_apply, val_main_v11_apply]
  have e : idx_main_v11 (idx_main_v12 (ix3 b n m)) = ix2 b n :=
    funext fun a => Fin.ext (by match a with | ⟨0, _⟩ => rfl | ⟨1, _⟩ => rfl)
  rw [e, v10_at]
  rfl

/-- The row's total of those exponentials. -/
theorem v15_at (b : Fin 32) (n : Fin 1024) :
    val_main_v15 (F := Ideal) x0 x1 (ix2 b n) = ∑ m : Fin 1024, val_main_v14 (F := Ideal) x0 x1 (ix3 b n m) := by
  rw [val_main_v15_apply, val_main_cst_3_apply, Ideal.ofBits_def, Ideal.ofBits_zero_f32, zero_add]
  refine Finset.sum_congr rfl fun k _ => congrArg _ ?_
  exact funext fun a => Fin.ext (by match a with | ⟨0, _⟩ => rfl | ⟨1, _⟩ => rfl | ⟨2, _⟩ => rfl)

/-- The softmax of the scores along the row. -/
theorem v18_at (b : Fin 32) (n m : Fin 1024) :
    val_main_v18 (F := Ideal) x0 x1 (ix3 b n m)
      = softmax (fun m' : Fin 1024 => val_main_v7 (F := Ideal) x0 x1 (ix3 b n m')) m := by
  rw [val_main_v18_apply, val_main_v17_apply, val_main_v16_apply]
  have e : idx_main_v16 (idx_main_v17 (ix3 b n m)) = ix2 b n :=
    funext fun a => Fin.ext (by match a with | ⟨0, _⟩ => rfl | ⟨1, _⟩ => rfl)
  rw [e, v15_at, v14_at, Ideal.hostDivf_def]
  unfold softmax
  exact congrArg (Ideal.div _) (Finset.sum_congr rfl fun k _ => v14_at x0 x1 b n k)

/-! ## The softmax along each column -/

/-- The column's greatest score. -/
theorem v21_at (b : Fin 32) (m : Fin 1024) :
    val_main_v21 (F := Ideal) x0 x1 (ix2 b m) = rowMax (fun n : Fin 1024 => val_main_v7 (F := Ideal) x0 x1 (ix3 b n m)) := by
  rw [val_main_v21_apply, val_main_v20_apply, val_main_cst_5_apply]
  unfold val_main_v19
  rw [reduce_max_mid _ _ (fun i => by rw [val_main_cst_4_apply, Ideal.ofBits_def, bot_word]) b m]
  simp only [Ideal.ofBits_def, bot_word, Ideal.maximumf_def]
  exact max_eq_right bot_le

/-- The exponential of the score shifted by its column's greatest. -/
theorem v25_at (b : Fin 32) (n m : Fin 1024) :
    val_main_v25 (F := Ideal) x0 x1 (ix3 b n m)
      = Ideal.exp (val_main_v7 (F := Ideal) x0 x1 (ix3 b n m)
          - rowMax (fun n' : Fin 1024 => val_main_v7 (F := Ideal) x0 x1 (ix3 b n' m))) := by
  rw [val_main_v25_apply, val_main_v24_apply, val_main_v23_apply, val_main_v22_apply]
  have e : idx_main_v22 (idx_main_v23 (ix3 b n m)) = ix2 b m :=
    funext fun a => Fin.ext (by match a with | ⟨0, _⟩ => rfl | ⟨1, _⟩ => rfl)
  rw [e, v21_at]
  rfl

/-- The column's total of those exponentials. -/
theorem v26_at (b : Fin 32) (m : Fin 1024) :
    val_main_v26 (F := Ideal) x0 x1 (ix2 b m) = ∑ n : Fin 1024, val_main_v25 (F := Ideal) x0 x1 (ix3 b n m) := by
  rw [val_main_v26_apply, val_main_cst_6_apply, Ideal.ofBits_def, Ideal.ofBits_zero_f32, zero_add]
  refine Finset.sum_congr rfl fun k _ => congrArg _ ?_
  exact funext fun a => Fin.ext (by match a with | ⟨0, _⟩ => rfl | ⟨1, _⟩ => rfl | ⟨2, _⟩ => rfl)

/-- The softmax of the scores along the column. -/
theorem v29_at (b : Fin 32) (n m : Fin 1024) :
    val_main_v29 (F := Ideal) x0 x1 (ix3 b n m)
      = softmax (fun n' : Fin 1024 => val_main_v7 (F := Ideal) x0 x1 (ix3 b n' m)) n := by
  rw [val_main_v29_apply, val_main_v28_apply, val_main_v27_apply]
  have e : idx_main_v27 (idx_main_v28 (ix3 b n m)) = ix2 b m :=
    funext fun a => Fin.ext (by match a with | ⟨0, _⟩ => rfl | ⟨1, _⟩ => rfl)
  rw [e, v26_at, v25_at, Ideal.hostDivf_def]
  unfold softmax
  exact congrArg (Ideal.div _) (Finset.sum_congr rfl fun k _ => v25_at x0 x1 b k m)

/-! ## The mutual weights and their tempering -/

/-- The product of the two softmaxes: the mutual weights of the table of scores. -/
theorem v30_at (b : Fin 32) (n m : Fin 1024) :
    val_main_v30 (F := Ideal) x0 x1 (ix3 b n m)
      = weights (fun p q : Fin 1024 => val_main_v7 (F := Ideal) x0 x1 (ix3 b p q)) n m := by
  rw [val_main_v30_apply, v18_at, v29_at]
  rfl

/-- The weights divided by the temperature. -/
theorem v32_at (b : Fin 32) (n m : Fin 1024) :
    val_main_v32 (F := Ideal) x0 x1 (ix3 b n m)
      = Ideal.div (weights (fun p q : Fin 1024 => val_main_v7 (F := Ideal) x0 x1 (ix3 b p q)) n m)
          (Ideal.ofBits .f32 0x3CCCCCCD#32) := by
  rw [val_main_v32_apply, val_main_v31_apply, val_main_cst_7_apply, v30_at]
  rfl

/-! ## The softmax of the tempered weights along each row -/

/-- The row's greatest tempered weight. -/
theorem v35_at (b : Fin 32) (n : Fin 1024) :
    val_main_v35 (F := Ideal) x0 x1 (ix2 b n) = rowMax (fun m : Fin 1024 => val_main_v32 (F := Ideal) x0 x1 (ix3 b n m)) := by
  rw [val_main_v35_apply, val_main_v34_apply, val_main_cst_9_apply]
  unfold val_main_v33
  rw [reduce_max_last _ _ (fun i => by rw [val_main_cst_8_apply, Ideal.ofBits_def, bot_word]) b n]
  simp only [Ideal.ofBits_def, bot_word, Ideal.maximumf_def]
  exact max_eq_right bot_le

/-- The exponential of the tempered weight shifted by its row's greatest. -/
theorem v39_at (b : Fin 32) (n m : Fin 1024) :
    val_main_v39 (F := Ideal) x0 x1 (ix3 b n m)
      = Ideal.exp (val_main_v32 (F := Ideal) x0 x1 (ix3 b n m)
          - rowMax (fun m' : Fin 1024 => val_main_v32 (F := Ideal) x0 x1 (ix3 b n m'))) := by
  rw [val_main_v39_apply, val_main_v38_apply, val_main_v37_apply, val_main_v36_apply]
  have e : idx_main_v36 (idx_main_v37 (ix3 b n m)) = ix2 b n :=
    funext fun a => Fin.ext (by match a with | ⟨0, _⟩ => rfl | ⟨1, _⟩ => rfl)
  rw [e, v35_at]
  rfl

/-- The row's total of those exponentials. -/
theorem v40_at (b : Fin 32) (n : Fin 1024) :
    val_main_v40 (F := Ideal) x0 x1 (ix2 b n) = ∑ m : Fin 1024, val_main_v39 (F := Ideal) x0 x1 (ix3 b n m) := by
  rw [val_main_v40_apply, val_main_cst_10_apply, Ideal.ofBits_def, Ideal.ofBits_zero_f32, zero_add]
  refine Finset.sum_congr rfl fun k _ => congrArg _ ?_
  exact funext fun a => Fin.ext (by match a with | ⟨0, _⟩ => rfl | ⟨1, _⟩ => rfl | ⟨2, _⟩ => rfl)

/-- The softmax of the tempered weights along the row. -/
theorem v43_at (b : Fin 32) (n m : Fin 1024) :
    val_main_v43 (F := Ideal) x0 x1 (ix3 b n m)
      = softmax (fun m' : Fin 1024 => val_main_v32 (F := Ideal) x0 x1 (ix3 b n m')) m := by
  rw [val_main_v43_apply, val_main_v42_apply, val_main_v41_apply]
  have e : idx_main_v41 (idx_main_v42 (ix3 b n m)) = ix2 b n :=
    funext fun a => Fin.ext (by match a with | ⟨0, _⟩ => rfl | ⟨1, _⟩ => rfl)
  rw [e, v40_at, v39_at, Ideal.hostDivf_def]
  unfold softmax
  exact congrArg (Ideal.div _) (Finset.sum_congr rfl fun k _ => v39_at x0 x1 b n k)

/-! ## The mask of each row's greatest entries -/

/-- The greatest entry of the row of that softmax. -/
theorem v44_at (b : Fin 32) (n : Fin 1024) :
    val_main_v44 (F := Ideal) x0 x1 (ix2 b n) = rowMax (fun m : Fin 1024 => val_main_v43 (F := Ideal) x0 x1 (ix3 b n m)) := by
  unfold val_main_v44
  exact reduce_max_last _ _ (fun i => by rw [val_main_cst_11_apply, Ideal.ofBits_def, bot_word]) b n

/-- An equality test converted to a number is one where the two sides are equal and zero elsewhere. -/
theorem uitofp_cmp_oeq (x y : EReal) :
    FloatOps.uitofp (F := Ideal) .f32 (FloatOps.cmpf (F := Ideal) (φ := .f32) .oeq x y) = if x = y then 1 else 0 := by
  rw [Ideal.cmpf_def]
  by_cases h : x = y
  · rw [if_pos h]
    show (((Ideal.cmp .oeq x y).toNat : ℝ) : EReal) = 1
    simp [Ideal.cmp, h]
  · rw [if_neg h]
    show (((Ideal.cmp .oeq x y).toNat : ℝ) : EReal) = 0
    simp [Ideal.cmp, h]

/-- The 0/1 mask of the row's greatest entries. -/
theorem v48_at (b : Fin 32) (n m : Fin 1024) :
    val_main_v48 (F := Ideal) x0 x1 (ix3 b n m)
      = hard (fun m' : Fin 1024 => val_main_v43 (F := Ideal) x0 x1 (ix3 b n m')) m := by
  rw [val_main_v48_apply, val_main_v47_apply, val_main_v46_apply, val_main_v45_apply]
  have e : idx_main_v45 (idx_main_v46 (ix3 b n m)) = ix2 b n :=
    funext fun a => Fin.ext (by match a with | ⟨0, _⟩ => rfl | ⟨1, _⟩ => rfl)
  rw [e, v44_at, uitofp_cmp_oeq]
  rfl

end Stages

/-! ## The result -/

/-- The reference's result before its final reshape: the features gathered, for each query, over the keys
    whose tempered softmax of the mutual weights is greatest in the query's row. -/
theorem v50_eq_tempered (x0 : (⟨S32x256x32x32, .f32⟩ : BufTy).Contents (Elt Ideal)) (x1 : (⟨S1024x256, .f32⟩ : BufTy).Contents (Elt Ideal))
    (b : Fin 32) (c : Fin 256) (n : Fin 1024) :
    val_main_v50 (F := Ideal) x0 x1 (ix3 b c n)
      = tempered (Ideal.pow (Ideal.ofBits .f32 0x43800000#32) (Ideal.ofBits .f32 0x3F000000#32)) (Ideal.ofBits .f32 0x3CCCCCCD#32)
          x1 (val_main_v0 (F := Ideal) x0) b c n := by
  rw [val_main_v50_apply, val_main_v49_apply]
  unfold tempered gatherSum
  refine Finset.sum_congr rfl fun m _ => ?_
  have el : lidx_main_v49 (idx_main_v50 (ix3 b c n)) m = ix3 b n m :=
    funext fun a => Fin.ext (by match a with | ⟨0, _⟩ => rfl | ⟨1, _⟩ => rfl | ⟨2, _⟩ => rfl)
  have er : idx_main_v1 (ridx_main_v49 (idx_main_v50 (ix3 b c n)) m) = ix3 b c m :=
    funext fun a => Fin.ext (by match a with | ⟨0, _⟩ => rfl | ⟨1, _⟩ => rfl | ⟨2, _⟩ => rfl)
  rw [el, val_main_v1_apply, er, v48_at, mul_comm]
  refine congrArg (fun f : Fin 1024 → EReal => val_main_v0 (F := Ideal) x0 (ix3 b c m) * hard f m) ?_
  funext m'
  rw [v43_at]
  refine congrArg (fun f : Fin 1024 → EReal => softmax f m') ?_
  funext m''
  rw [v32_at]
  refine congrArg (fun A : Fin 1024 → Fin 1024 → EReal => Ideal.div (weights A n m'') _) ?_
  funext p q
  exact v7_at x0 x1 b p q

end Cert.ReferenceIdeal.RefValue

end
-- ==== Proof.MaskLaw.lean ====
/-
  The mask law: a softmax at a positive temperature keeps a row's greatest entries where they are.

  A row entry equals the row's greatest exactly when no entry of the row exceeds it.  For a row of real numbers
  the softmax is  j ↦ exp (g j - m) / S  with one shift m and one positive total S for the whole row, a strictly
  increasing function of the entry; dividing the row by a positive temperature first is strictly increasing too.
  So the softmaxed row and the row itself order their entries alike, and their 0/1 masks coincide.
-/
import proofs.«157147_j72310069395865_2_alg».proof.Proof.Spec

noncomputable section

namespace Cert.MutualNN

open Idealize.ShloMosaic Idealize.ShloMosaic.ValueIdx

/-! ### The greatest entry of a row -/

/-- Every entry is at most the row's greatest. -/
theorem le_rowMax {n : ℕ} (f : Fin n → EReal) (k : Fin n) : f k ≤ rowMax f :=
  (Finset.le_fold_max _).2 (Or.inr ⟨k, Finset.mem_univ k, le_rfl⟩)

/-- The row's greatest is below any bound of the entries. -/
theorem rowMax_le {n : ℕ} (f : Fin n → EReal) {c : EReal} (h : ∀ k, f k ≤ c) : rowMax f ≤ c :=
  (Finset.fold_max_le _).2 ⟨bot_le, fun k _ => h k⟩

/-- An entry is the row's greatest exactly when no entry exceeds it. -/
theorem eq_rowMax_iff {n : ℕ} (f : Fin n → EReal) (j : Fin n) : f j = rowMax f ↔ ∀ k, f k ≤ f j :=
  ⟨fun h k => h ▸ le_rowMax f k, fun h => le_antisymm (le_rowMax f j) (rowMax_le f h)⟩

/-- Two rows that order their entries alike have the same mask. -/
theorem hard_congr_of_le_iff {n : ℕ} (g f : Fin n → EReal) (h : ∀ j k, g k ≤ g j ↔ f k ≤ f j) :
    hard g = hard f := by
  funext j
  have e : g j = rowMax g ↔ f j = rowMax f := by
    rw [eq_rowMax_iff, eq_rowMax_iff]
    exact forall_congr' (h j)
  unfold hard
  exact if_congr e rfl rfl

/-! ### Real values -/

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of coerced reals is the coerced sum. -/
theorem coe_finset_sum {ι : Type*} (s : Finset ι) (h : ι → ℝ) :
    (∑ i ∈ s, (h i : EReal)) = ((∑ i ∈ s, h i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (hf : ∀ i ∈ s, IsReal (f i)) :
    IsReal (∑ i ∈ s, f i) := by
  classical
  induction s using Finset.induction_on with
  | empty => exact ⟨0, by simp⟩
  | insert a s ha ih =>
    obtain ⟨x, hx⟩ := hf a (Finset.mem_insert_self a s)
    obtain ⟨y, hy⟩ := ih (fun i hi => hf i (Finset.mem_insert_of_mem hi))
    exact ⟨x + y, by rw [Finset.sum_insert ha, hx, hy, EReal.coe_add]⟩

/-! ### The softmax of a row of reals -/

/-- The softmax of a nonempty row of reals: one real shift and one positive real total serve the whole row. -/
theorem softmax_coe_form {n : ℕ} (g : Fin n → ℝ) (j0 : Fin n) :
    ∃ m S : ℝ, 0 < S ∧ ∀ j, softmax (fun k => (g k : EReal)) j = ((Real.exp (g j - m) / S : ℝ) : EReal) := by
  obtain ⟨k0, -, hk0⟩ := Finset.exists_max_image Finset.univ g ⟨j0, Finset.mem_univ j0⟩
  have hM : rowMax (fun k => (g k : EReal)) = ((g k0 : ℝ) : EReal) :=
    ((eq_rowMax_iff (fun k => (g k : EReal)) k0).2
      (fun k => EReal.coe_le_coe_iff.2 (hk0 k (Finset.mem_univ k)))).symm
  have hS : 0 < ∑ k : Fin n, Real.exp (g k - g k0) :=
    Finset.sum_pos (fun k _ => Real.exp_pos _) ⟨j0, Finset.mem_univ j0⟩
  refine ⟨g k0, ∑ k : Fin n, Real.exp (g k - g k0), hS, fun j => ?_⟩
  have hterm : ∀ k : Fin n, Ideal.exp ((g k : EReal) - rowMax (fun k => (g k : EReal)))
      = ((Real.exp (g k - g k0) : ℝ) : EReal) := by
    intro k
    rw [hM, ← EReal.coe_sub, Ideal.exp_coe]
  unfold softmax
  simp only [hterm]
  rw [coe_finset_sum, Ideal.div_coe hS.ne', ← EReal.coe_mul, mul_one_div]

theorem softmax_isReal {n : ℕ} (f : Fin n → EReal) (hf : ∀ k, IsReal (f k)) (j : Fin n) :
    IsReal (softmax f j) := by
  choose g hg using hf
  obtain rfl : f = fun k => (g k : EReal) := funext hg
  obtain ⟨m, S, -, h⟩ := softmax_coe_form g j
  exact ⟨_, h j⟩

/-! ### The mask law -/

-- the heart: a softmax at a positive temperature keeps a row's greatest entries where they are
theorem hard_softmax_div {n : ℕ} (f : Fin n → EReal) (hf : ∀ k, IsReal (f k)) {t : ℝ} (ht : 0 < t) :
    hard (softmax fun k => Ideal.div (f k) (t : EReal)) = hard f := by
  choose g hg using hf
  obtain rfl : f = fun k => (g k : EReal) := funext hg
  have hdiv : (fun k => Ideal.div ((g k : EReal)) (t : EReal)) = fun k => ((g k / t : ℝ) : EReal) := by
    funext k
    rw [Ideal.div_coe ht.ne', ← EReal.coe_mul, mul_one_div]
  rw [hdiv]
  apply hard_congr_of_le_iff
  intro j k
  obtain ⟨m, S, hS, h⟩ := softmax_coe_form (fun k => g k / t) j
  rw [h k, h j, EReal.coe_le_coe_iff, EReal.coe_le_coe_iff, div_le_div_iff_of_pos_right hS,
    Real.exp_le_exp, sub_le_sub_iff_right, div_le_div_iff_of_pos_right ht]

/-! ### The two results -/

theorem tempered_eq_direct (Q : (⟨2, ![1024, 256]⟩ : Shape).Idx → EReal) (X : (⟨3, ![32, 256, 1024]⟩ : Shape).Idx → EReal)
    (hQ : ∀ i, IsReal (Q i)) (hX : ∀ i, IsReal (X i)) {d t : ℝ} (hd : d ≠ 0) (ht : 0 < t) :
    tempered (d : EReal) (t : EReal) Q X = direct (((1 / d : ℝ) : ℝ) : EReal) Q X := by
  funext b c n
  have hA : ∀ p q, IsReal (dots Q X b p q * ((1 / d : ℝ) : EReal)) := fun p q =>
    IsReal.mul (IsReal.sum _ _ (fun c _ => IsReal.mul (hQ _) (hX _))) ⟨1 / d, rfl⟩
  have hscore : (fun p q => Ideal.div (dots Q X b p q) (d : EReal))
      = fun p q => dots Q X b p q * ((1 / d : ℝ) : EReal) := by
    funext p q
    exact Ideal.div_coe hd _
  have hmask : (fun n' => hard (softmax fun m' =>
        Ideal.div (weights (fun p q => dots Q X b p q * ((1 / d : ℝ) : EReal)) n' m') (t : EReal)))
      = fun n' => hard (weights (fun p q => dots Q X b p q * ((1 / d : ℝ) : EReal)) n') := by
    funext n'
    exact hard_softmax_div _ (fun m' =>
      IsReal.mul (softmax_isReal _ (fun k => hA n' k) m') (softmax_isReal _ (fun k => hA k m') n')) ht
  unfold tempered direct
  rw [hscore, hmask]

end Cert.MutualNN

end
-- ==== Proof.Finite.lean ====
/-
  Finite inputs are real numbers.

  The precondition says that every entry of both arguments has absolute value below `+∞`. Among the extended reals
  that leaves exactly the real numbers: `|⊤| = |⊥| = ⊤` is not below `⊤`.
-/
import proofs.«157147_j72310069395865_2_alg».proof.Pre_finite_inputs
import proofs.«157147_j72310069395865_2_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Finite

open Cert.Pre_finite_inputs Cert.Pre_finite_inputs.Facts Cert.MutualNN Idealize.ShloMosaic Idealize.ShloMosaic.ValueIdx

variable [Cert.Pre_finite_inputs.Facts]

instance : Subsingleton S_.Idx := ⟨fun a b => funext fun d => d.elim0⟩

/-- The pattern of `+∞`. -/
theorem top_word : Ideal.ofBits .f32 0x7F800000#32 = (⊤ : EReal) := by
  simp [Ideal.ofBits, Ideal.ieee]

/-- An extended real whose absolute value is below `+∞` is a real number. -/
theorem isReal_of_abs_lt (x : EReal)
    (h : FloatOps.cmpf (F := Ideal) (φ := .f32) .olt (FloatOps.hostAbsf (F := Ideal) (φ := .f32) x) (Ideal.ofBits .f32 0x7F800000#32) = 1#1) :
    IsReal x := by
  rw [top_word, Ideal.cmpf_def, Ideal.hostAbsf_def, Ideal.absf_def] at h
  induction x using EReal.rec with
  | bot => exact absurd h (by simp [Ideal.cmp])
  | coe r => exact ⟨r, rfl⟩
  | top => exact absurd h (by simp [Ideal.cmp])

theorem finite_of_pre (a0 : FVec Ideal S32x256x32x32 .f32) (a1 : FVec Ideal S1024x256 .f32)
    (h : fn (F := Ideal) a0 a1 = fun _ => 1#1) : (∀ i, IsReal (a0 i)) ∧ (∀ i, IsReal (a1 i)) := by
  have h1 := congrFun h ix0
  dsimp only [fn] at h1
  obtain ⟨ha, hb⟩ := IntOp.andi_eq_one.1 h1
  refine ⟨fun i => isReal_of_abs_lt _ ?_, fun i => isReal_of_abs_lt _ ?_⟩
  · have e : (broadcastInDim S32x256x32x32 ![] bcast_S_S32x256x32x32 (constant (F := Ideal) S_ .f32 0x7F800000#32)) i
        = Ideal.ofBits .f32 0x7F800000#32 := broadcastInDim_apply _ bcast_S_S32x256x32x32 _ i ix0 (fun a => a.elim0)
    have hi := Host.reduce_andi_all _ _ _ _ _ ha i
    rw [cmpf_apply, e] at hi
    exact hi
  · have e : (broadcastInDim S1024x256 ![] bcast_S_S1024x256 (constant (F := Ideal) S_ .f32 0x7F800000#32)) i
        = Ideal.ofBits .f32 0x7F800000#32 := broadcastInDim_apply _ bcast_S_S1024x256 _ i ix0 (fun a => a.elim0)
    have hi := Host.reduce_andi_all _ _ _ _ _ hb i
    rw [cmpf_apply, e] at hi
    exact hi

end Cert.Pre_finite_inputs.Finite

end
-- ==== Proof.Consts.lean ====
/-
  The float constants the two programs spell, as the extended reals their patterns denote.

  The kernel scales the scores by the word of `1/16`; the reference divides them by `256 ^ (1/2)`, which is `16`. The
  reference's temperature is a positive real (the float nearest `0.025`); only its sign matters.
-/
import Idealize.ShloMosaic.PureOps.Ideal
import Mathlib.Analysis.SpecialFunctions.Pow.Real
import Mathlib.Analysis.SpecialFunctions.Sqrt

noncomputable section

namespace Cert.Consts

open Idealize.ShloMosaic

/-- `0.0625` is `1/16`. -/
theorem ofBits_sixteenth : Ideal.ofBits .f32 0x3D800000#32 = (((1 : ℝ) / 16 : ℝ) : EReal) := by
  simp [Ideal.ofBits, Ideal.ieee, -EReal.coe_mul]; norm_num

/-- `256.0` is `256`. -/
theorem ofBits_256 : Ideal.ofBits .f32 0x43800000#32 = ((256 : ℝ) : EReal) := by
  simp [Ideal.ofBits, Ideal.ieee, -EReal.coe_mul]; norm_num

/-- `0.5` is `1/2`. -/
theorem ofBits_half : Ideal.ofBits .f32 0x3F000000#32 = (((1 : ℝ) / 2 : ℝ) : EReal) := by
  simp [Ideal.ofBits, Ideal.ieee, -EReal.coe_mul]; norm_num

/-- The square root of `256`, written as a power, is `16`. -/
theorem pow_256_half : Ideal.pow (Ideal.ofBits .f32 0x43800000#32) (Ideal.ofBits .f32 0x3F000000#32) = ((16 : ℝ) : EReal) := by
  rw [ofBits_256, ofBits_half, Ideal.pow_coe_coe]
  refine congrArg (fun r : ℝ => (r : EReal)) ?_
  show (256 : ℝ) ^ ((1 : ℝ) / 2) = 16
  rw [← Real.sqrt_eq_rpow, show (256 : ℝ) = 16 * 16 by norm_num]
  exact Real.sqrt_mul_self (by norm_num)

/-- The temperature's word denotes a positive real. -/
theorem ofBits_temperature : ∃ t : ℝ, 0 < t ∧ Ideal.ofBits .f32 0x3CCCCCCD#32 = (t : EReal) := by
  refine ⟨13421773 * (2 : ℝ) ^ (-29 : ℤ), by positivity, ?_⟩
  simp [Ideal.ofBits, Ideal.ieee, -EReal.coe_mul]

end Cert.Consts

end
-- ==== Proof.lean ====
/-
  A mutual-nearest-neighbour "hard" attention computed two ways, shown equal over the extended reals.

  For each batch entry both programs form the scores  A n m = (∑ c, q (n, c) · x (c, m)) / 16  of 1024 queries against 1024
  keys (the kernel multiplies by the word of 1/16, the reference divides by 256 ^ (1/2) = 16; a change of float format is
  the identity on the extended reals, and a matmul is the plain sum of products on either side), weight each score by
  the product of the softmax along its row and the softmax along its column, keep for every query the keys at which its
  row of weights is greatest as a 0/1 mask, and sum the features over the kept keys.

  The one difference: the reference passes each row of weights through a further softmax at temperature 0.025 before
  taking the mask; the kernel takes the mask of the weights themselves. Under the precondition every input is a real
  number, so every score and every weight is a real number, and a softmax of a row of reals is a strictly increasing
  function of the entry (one shift and one positive normaliser serve the whole row): it has its greatest entries
  exactly where the row has them (Proof/MaskLaw.lean). Hence the two masks, and the two results, are equal.

  The modules: Proof/Spec.lean states the two results over plain arrays; Proof/MaskLaw.lean proves them equal on real
  inputs; Proof/KernelBody.lean and Proof/KernelValue.lean read the kernel's result array (the 32 blocks, one per batch
  entry, tile it) and Proof/RefValue.lean the reference's, stage by stage; Proof/Finite.lean reads the precondition;
  Proof/Consts.lean evaluates the three float words.
-/
import proofs.«157147_j72310069395865_2_alg».proof.Defs
import proofs.«157147_j72310069395865_2_alg».proof.Proof.Gen.Kernel
import proofs.«157147_j72310069395865_2_alg».proof.Proof.Gen.Kernel.Skeleton
import proofs.«157147_j72310069395865_2_alg».proof.Proof.Gen.Kernel.Launch
import proofs.«157147_j72310069395865_2_alg».proof.Proof.Gen.Kernel.Points
import proofs.«157147_j72310069395865_2_alg».proof.Proof.Gen.Kernel.Frame
import proofs.«157147_j72310069395865_2_alg».proof.Proof.Gen.KernelIdeal
import proofs.«157147_j72310069395865_2_alg».proof.Proof.Gen.KernelIdeal.Skeleton
import proofs.«157147_j72310069395865_2_alg».proof.Proof.Gen.KernelIdeal.Launch
import proofs.«157147_j72310069395865_2_alg».proof.Proof.Gen.KernelIdeal.Points
import proofs.«157147_j72310069395865_2_alg».proof.Proof.Gen.KernelIdeal.Frame
import proofs.«157147_j72310069395865_2_alg».proof.Proof.Gen.ReferenceIdeal
import proofs.«157147_j72310069395865_2_alg».proof.Proof.Gen.Pre_finite_inputs
import proofs.«157147_j72310069395865_2_alg».proof.Proof.Gen.ReferenceIdeal.Run
import proofs.«157147_j72310069395865_2_alg».proof.Proof.Gen.ReferenceIdeal.Read
import proofs.«157147_j72310069395865_2_alg».proof.Proof.KernelValue
import proofs.«157147_j72310069395865_2_alg».proof.Proof.RefValue
import proofs.«157147_j72310069395865_2_alg».proof.Proof.MaskLaw
import proofs.«157147_j72310069395865_2_alg».proof.Proof.Finite
import proofs.«157147_j72310069395865_2_alg».proof.Proof.Consts
import Idealize.ShloMosaic.Adequacy
import Idealize.ShloMosaic.Init

noncomputable section

namespace Cert.Proof

open Idealize.ShloMosaic Idealize.ShloMosaic.TcCoe Idealize.SL.Sem Idealize.ShloMosaic.ValueIdx Cert.MutualNN

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition the reference's result before its final reshape, taken of the kernel's arguments, is the
    kernel's output array: both are the masked sum, tempered or not, of real arrays. -/
theorem arrays_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v50 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Hand.result m c := by
  obtain ⟨h0, h1⟩ := Cert.Pre_finite_inputs.Finite.finite_of_pre _ _ (hpre c)
  obtain ⟨t, ht, hT⟩ := Cert.Consts.ofBits_temperature
  funext i
  obtain ⟨b, cc, n, rfl⟩ : ∃ (b : Fin 32) (cc : Fin 256) (n : Fin 1024), i = ix3 b cc n := ⟨i 0, i 1, i 2, eq_ix3 i⟩
  rw [Cert.ReferenceIdeal.RefValue.v50_eq_tempered, Cert.Consts.pow_256_half, hT]
  have hX : ∀ j, IsReal (Cert.KernelIdeal.Hand.feats m c j) := fun j => h0 _
  have e := congrFun (congrFun (congrFun (tempered_eq_direct (Cert.KernelIdeal.Hand.table m c) (Cert.KernelIdeal.Hand.feats m c)
    h1 hX (d := 16) (t := t) (by norm_num) ht) b) cc) n
  unfold Cert.KernelIdeal.Hand.result
  rw [Cert.Consts.ofBits_sixteenth]
  exact e

/-- At `Ideal` the kernel's result ends at the reshaped output array (read off its frame run) and the reference's at the
    reshape of its last transposed product (its generated run) of arguments that agree: one array, by `arrays_agree`. -/
theorem algebraic : Cert.algebraic_KernelIdeal_ReferenceIdeal := by
  intro m ρ m' ρ' hpre hagree
  refine ⟨fun c => shapeCast Cert.KernelIdeal.S32x256x32x32 (Cert.KernelIdeal.Hand.result m c)
    Cert.KernelIdeal.Gen.shapeCasts_S32x256x1024_S32x256x32x32, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2]
  unfold Cert.ReferenceIdeal.Read.val_main_v51
  rw [arrays_agree m hpre c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
